-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32x64 .f32) (main_arg6 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) (main_arg5 : FVec F S32x64 .f32) (main_arg6 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S64x32 : Shape := ⟨2, ![64, 32]⟩
abbrev S1700000x32 : Shape := ⟨2, ![1700000, 32]⟩
abbrev S1x32 : Shape := ⟨2, ![1, 32]⟩

abbrev nBuf : Space → Nat
  | .hbm => 86
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x32, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x32, .f32⟩
  | .hbm, ⟨77, _⟩ => ⟨S1700000x1, .f32⟩
  | .hbm, ⟨78, _⟩ => ⟨S1700000x32, .f32⟩
  | .hbm, ⟨79, _⟩ => ⟨S1700000x32, .f32⟩
  | .hbm, ⟨80, _⟩ => ⟨S_, .f32⟩
  | .hbm, ⟨81, _⟩ => ⟨S100000x32, .f32⟩
  | .hbm, ⟨82, _⟩ => ⟨S1700000x1, .i32⟩
  | .hbm, ⟨83, _⟩ => ⟨S100000x32, .f32⟩
  | .hbm, ⟨84, _⟩ => ⟨S1x32, .f32⟩
  | .hbm, ⟨85, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S32x64, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S1x32, .f32⟩
  | .local _ .vmem, ⟨14, _⟩ => ⟨S10000x32, .f32⟩
  | .local _ .vmem, ⟨15, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S64x32 : Shape := ⟨2, ![64, 32]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 136
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x64, .f32⟩
  | 4 => ⟨S64, .f32⟩
  | 5 => ⟨S32x64, .f32⟩
  | 6 => ⟨S32, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S100000, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S64x64, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S1x1600000, .i32⟩
  | 74 => ⟨S1600000, .i32⟩
  | 75 => ⟨S1x1600000, .i32⟩
  | 76 => ⟨S1600000, .i32⟩
  | 77 => ⟨S100000, .i32⟩
  | 78 => ⟨S1700000, .i32⟩
  | 79 => ⟨S1700000, .i32⟩
  | 80 => ⟨S_, .f32⟩
  | 81 => ⟨S100000, .f32⟩
  | 82 => ⟨S1700000, .f32⟩
  | 83 => ⟨S_, .f32⟩
  | 84 => ⟨S100000, .f32⟩
  | 85 => ⟨S1700000x1, .i32⟩
  | 86 => ⟨S100000, .f32⟩
  | 87 => ⟨S_, .f32⟩
  | 88 => ⟨S100000, .f32⟩
  | 89 => ⟨S100000, .i1⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S1700000, .f32⟩
  | 115 => ⟨S64x32, .f32⟩
  | 116 => ⟨S100000x32, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x32, .f32⟩
  | 126 => ⟨S1700000x1, .f32⟩
  | 127 => ⟨S1700000x32, .f32⟩
  | _ => ⟨S100000x64, .f32⟩

abbrev hbmTy0_1 (i : Nat) : BufTy := match i % 128 with
  | 0 => ⟨S1700000x32, .f32⟩
  | 1 => ⟨S_, .f32⟩
  | 2 => ⟨S100000x32, .f32⟩
  | 3 => ⟨S1700000x1, .i32⟩
  | 4 => ⟨S100000x32, .f32⟩
  | 5 => ⟨S1x32, .f32⟩
  | 6 => ⟨S100000x32, .f32⟩
  | 7 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_c_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_15 : Ref sig .tc := ⟨.hbm, 105, rfl⟩
abbrev main_v75 : Ref sig .tc := ⟨.hbm, 106, rfl⟩
abbrev main_v76 : Ref sig .tc := ⟨.hbm, 107, rfl⟩
abbrev main_c_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_17 : Ref sig .tc := ⟨.hbm, 117, rfl⟩
abbrev main_v85 : Ref sig .tc := ⟨.hbm, 118, rfl⟩
abbrev main_v86 : Ref sig .tc := ⟨.hbm, 119, rfl⟩
abbrev main_c_18 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_19 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  transposes_S64x64_S64x64_1_0 : S64x64.Transposes [1, 0] S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S32x64_S64x32_1_0 : S32x64.Transposes [1, 0] S64x32
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KRun.lean ====
/-
  The idealized kernel's run, with every array it leaves NAMED.

  @main of the kernel is eight segments: three stretches of host operations (the edge lists with their
  self loops, the degrees, the symmetric normalisation coefficients), the first dense layer's product
  as a row-tiled region, a stretch (gather the product's rows along the edges, scale, sum into the
  destination rows), the second region (bias, ReLU and the second product), another such stretch, and
  the last region (the output bias). The contents of the TensorCore's buffers at each boundary are a
  fold through these segments, `Gen.W0 … Gen.W8`: a stretch applies its operations
  (`StableHlo.after`), a region replaces its output array by what its grid points wrote back.

  The chain of the eight segments is run from the launch memory and the final memory is kept whole:
  every unscoped buffer ends at the last boundary's contents `Gen.W8`. The result array and the
  arguments are then read off it (an argument is written by no segment, so the fold at its buffer
  walks back to the launch contents).
-/
import proofs.«165319_j21337397526794_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel's @main terminates, nothing faulting, and every unscoped buffer of
    every core ends at the last boundary's contents `Gen.W8`: the chain of the eight segments from the launch
    memory, the last thread state read against the final state. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the ghost state dealt at the launch is the pipelines' initial cells and tokens; no core is given anything more
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      -- each core starts holding its unscoped buffers at the launch contents, its generator register, and owing nothing
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      -- the last thread state holds every unscoped buffer at `W8`: read them all against the final memory
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run with the result array named and the arguments unchanged: the result buffer `main_v62` ends at the
    last boundary's contents of it, each argument at its launch contents. -/
theorem run_values : θ_run defs (onTc (τ := τ) (main (F := F))) ⟨m, fun _ => 0, ρ⟩ (fun r => ∀ c : Dev nD,
      r.2.mem ((c : Thread nD τ).loc main_v62) = W8 m ρ c (Proc.devRef .tc main_v62)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun r h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)
    (run_final m ρ)

end Cert.KernelIdeal.KRun

end
-- ==== Proof.Spec.lean ====
/-
  The three dense steps of the two-layer graph convolution as whole-array functions, index by index
  over the extended reals, and the reference's own stages read as them.

  * `layer1 a w`: the first linear map, `(a · wᵀ)[r, c] = Σ_k a[r, k] · w[c, k]` over the 64 input
    features (the reference transposes `w` and contracts its first axis: the same sum).
  * `layer2 s b w`: bias, ReLU and the second linear map,
    `(max(s + b, 0) · wᵀ)[r, c] = Σ_k max(s[r, k] + b[0, k], 0) · w[c, k]`, the bias a row `[1, 64]`.
  * `outBias s b`: the output bias, `s[r, c] + b[0, c]`, the bias a row `[1, 32]`.

  Between them sit the two sparse aggregations (gather the rows along the edges, scale by the
  normalisation coefficient, sum into the destination rows); they are the same host operations in both
  programs and are never opened here.

  The index maps are the ones the reference's read-at-an-index lemmas name, so that each of the
  reference's stages IS the layer function of the stage before it by one chain of those lemmas.
-/
import proofs.«165319_j21337397526794_1_alg».proof.Proof.Gen.ReferenceIdeal.Read

noncomputable section

namespace Cert.Layers

open Cert.ReferenceIdeal Cert.ReferenceIdeal.Read Idealize.ShloMosaic

/-- The first linear map at row `r`, feature `c`: the sum over the 64 input features `k` of `a[r, k] · w[c, k]`. -/
def layer1 (a : (⟨S100000x64, .f32⟩ : BufTy).Contents (Elt Ideal)) (w : (⟨S64x64, .f32⟩ : BufTy).Contents (Elt Ideal)) :
    (⟨S100000x64, .f32⟩ : BufTy).Contents (Elt Ideal) :=
  fun i => ∑ k : Fin 64, a (lidx_main_v33 i k) * w (idx_main_v32 (ridx_main_v33 i k))

/-- Bias, ReLU and the second linear map at row `r`, feature `c`: the sum over the 64 hidden features `k` of
    `max(s[r, k] + b[0, k], 0) · w[c, k]`. -/
def layer2 (s : (⟨S100000x64, .f32⟩ : BufTy).Contents (Elt Ideal)) (b : (⟨S1x64, .f32⟩ : BufTy).Contents (Elt Ideal))
    (w : (⟨S32x64, .f32⟩ : BufTy).Contents (Elt Ideal)) : (⟨S100000x32, .f32⟩ : BufTy).Contents (Elt Ideal) :=
  fun i => ∑ k : Fin 64,
    FloatOps.maximumf (F := Ideal) (φ := .f32) (FloatOps.addf (F := Ideal) (φ := .f32) (s (lidx_main_v84 i k)) (b (idx_main_v48 (lidx_main_v84 i k))))
        (FloatOps.ofBits (F := Ideal) .f32 0x00000000#32)
      * w (idx_main_v83 (ridx_main_v84 i k))

/-- The output bias at row `r`, feature `c`: `s[r, c] + b[0, c]`. -/
def outBias (s : (⟨S100000x32, .f32⟩ : BufTy).Contents (Elt Ideal)) (b : (⟨S1x32, .f32⟩ : BufTy).Contents (Elt Ideal)) :
    (⟨S100000x32, .f32⟩ : BufTy).Contents (Elt Ideal) :=
  fun i => FloatOps.addf (F := Ideal) (φ := .f32) (s i) (b (idx_main_v99 i))

/-- The reference's first product (its `dot_general` against the transposed weights) is `layer1`. -/
theorem ref_layer1 (x0 : (⟨S100000x64, .f32⟩ : BufTy).Contents (Elt Ideal)) (x3 : (⟨S64x64, .f32⟩ : BufTy).Contents (Elt Ideal)) :
    val_main_v33 (F := Ideal) x0 x3 = layer1 x0 x3 := by
  funext i
  rw [val_main_v33_apply]
  exact Finset.sum_congr rfl fun k _ => by rw [val_main_v32_apply]

/-- The reference's second product, of the ReLU of the first aggregation plus its bias, is `layer2` of that
    aggregation and the bias as a row. -/
theorem ref_layer2 (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x64, .f32⟩ : BufTy).Contents (Elt Ideal))
    (x4 : (⟨S64, .f32⟩ : BufTy).Contents (Elt Ideal)) (x5 : (⟨S32x64, .f32⟩ : BufTy).Contents (Elt Ideal)) :
    val_main_v84 (F := Ideal) x0 x1 x2 x3 x4 x5 = layer2 (val_main_v46 (F := Ideal) x0 x1 x2 x3) (val_main_v47 (F := Ideal) x4) x5 := by
  funext i
  rw [val_main_v84_apply]
  unfold layer2
  refine Finset.sum_congr rfl fun k _ => ?_
  rw [val_main_v50_apply, val_main_v49_apply, val_main_v48_apply, val_main_call1_v0_apply, val_main_call1_cst_apply, val_main_v83_apply]

/-- The reference's result, the second aggregation plus its bias, is `outBias` of that aggregation and the bias as
    a row. -/
theorem ref_outBias (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x64, .f32⟩ : BufTy).Contents (Elt Ideal))
    (x4 : (⟨S64, .f32⟩ : BufTy).Contents (Elt Ideal)) (x5 : (⟨S32x64, .f32⟩ : BufTy).Contents (Elt Ideal))
    (x6 : (⟨S32, .f32⟩ : BufTy).Contents (Elt Ideal)) :
    val_main_v100 (F := Ideal) x0 x1 x2 x3 x4 x5 x6 = outBias (val_main_v97 (F := Ideal) x0 x1 x2 x3 x4 x5) (val_main_v98 (F := Ideal) x6) := by
  funext i
  refine (val_main_v100_apply (F := Ideal) x0 x1 x2 x3 x4 x5 x6 i).trans ?_
  unfold outBias
  exact congrArg (FloatOps.addf (F := Ideal) (φ := .f32) (val_main_v97 (F := Ideal) x0 x1 x2 x3 x4 x5 i)) (val_main_v99_apply (F := Ideal) x6 i)

end Cert.Layers

end
-- ==== Proof.Payload.lean ====
/-
  The three kernel bodies read at one index of the block they store, over the extended reals.

  Each body loads whole staging buffers, computes, and stores one whole block; the value it stores is one
  pure term of the loaded blocks. At row `p` and column `q` of the stored block:

  * the first product: the block product into a zero accumulator is the plain sum over the contracted
    axis, `Σ_k x[p, k] · w[q, k]` — the transpose in front of it swaps the weights' coordinates, and the
    changes of float format are the identity on extended reals;
  * bias, ReLU and the second product: `Σ_k max(s[p, k] + b[0, k], 0) · w[q, k]` — the bias row is
    broadcast down the rows, the casts of a block to its own shape are the identity;
  * the output bias: `s[p, q] + b[0, q]`.
-/
import proofs.«165319_j21337397526794_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The operand indices of the two block products -/

/-- The contraction index of the first block product, from its position among the 64 features. -/
abbrev e0 := contrEquiv1 dot_S10000x64_S64x64_S10000x64_1_0_0_1_n_n 64 rfl rfl
/-- The contraction index of the second block product, from its position among the 64 features. -/
abbrev e1 := contrEquiv1 dot_S10000x64_S64x32_S10000x32_1_0_0_1_n_n 64 rfl rfl

/-- Product 0: the left operand's row is the output's row, whatever the contraction index. -/
theorem lrow0 (i : S10000x64.Idx) (c : dot_S10000x64_S64x64_S10000x64_1_0_0_1_n_n.contr.Idx) : (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- Product 0: the right operand's column is the output's column, whatever the contraction index. -/
theorem rcol0 (i : S10000x64.Idx) (c : dot_S10000x64_S64x64_S10000x64_1_0_0_1_n_n.contr.Idx) : (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- Product 0: the left operand is read at the output's row and the contracted position. -/
theorem lhs0 (p : Fin 10000) (q : Fin 64) (k : Fin 64) :
    dot_S10000x64_S64x64_S10000x64_1_0_0_1_n_n.lhsIdx (ix2 p q) (e0.symm k) = ix2 p k := funext fun a => Fin.ext (by
  have hk := contrEquiv1_symm_val dot_S10000x64_S64x64_S10000x64_1_0_0_1_n_n 64 rfl rfl k
  match a with
  | ⟨0, _⟩ => exact lrow0 _ _
  | ⟨1, _⟩ => exact (dot_S10000x64_S64x64_S10000x64_1_0_0_1_n_n.lhsIdx_val_of_single rfl _ _).trans hk)

/-- Product 0: the right operand (the transposed weights) is read at the contracted position and the output's column. -/
theorem rhs0 (p : Fin 10000) (q : Fin 64) (k : Fin 64) :
    dot_S10000x64_S64x64_S10000x64_1_0_0_1_n_n.rhsIdx (ix2 p q) (e0.symm k) = ix2 k q := funext fun a => Fin.ext (by
  have hk := contrEquiv1_symm_val dot_S10000x64_S64x64_S10000x64_1_0_0_1_n_n 64 rfl rfl k
  match a with
  | ⟨0, _⟩ => exact (dot_S10000x64_S64x64_S10000x64_1_0_0_1_n_n.rhsIdx_val_of_single rfl _ _).trans hk
  | ⟨1, _⟩ => exact rcol0 _ _)

/-- Product 1: the left operand's row is the output's row, whatever the contraction index. -/
theorem lrow1 (i : S10000x32.Idx) (c : dot_S10000x64_S64x32_S10000x32_1_0_0_1_n_n.contr.Idx) : (dot_S10000x64_S64x32_S10000x32_1_0_0_1_n_n.lhsIdx i c 0).val = (i 0).val := by
  unfold DotDims.lhsIdx
  rw [dif_neg (show ¬(0 : Fin S10000x64.rank) ∈ dot_S10000x64_S64x32_S10000x32_1_0_0_1_n_n.lhsBatch by decide),
    dif_pos (show (0 : Fin S10000x64.rank) ∈ dot_S10000x64_S64x32_S10000x32_1_0_0_1_n_n.lhsNonContracting by decide)]
  rfl

/-- Product 1: the right operand's column is the output's column, whatever the contraction index. -/
theorem rcol1 (i : S10000x32.Idx) (c : dot_S10000x64_S64x32_S10000x32_1_0_0_1_n_n.contr.Idx) : (dot_S10000x64_S64x32_S10000x32_1_0_0_1_n_n.rhsIdx i c 1).val = (i 1).val := by
  unfold DotDims.rhsIdx
  rw [dif_neg (show ¬(1 : Fin S64x32.rank) ∈ dot_S10000x64_S64x32_S10000x32_1_0_0_1_n_n.rhsBatch by decide),
    dif_pos (show (1 : Fin S64x32.rank) ∈ dot_S10000x64_S64x32_S10000x32_1_0_0_1_n_n.rhsNonContracting by decide)]
  rfl

/-- Product 1: the left operand is read at the output's row and the contracted position. -/
theorem lhs1 (p : Fin 10000) (q : Fin 32) (k : Fin 64) :
    dot_S10000x64_S64x32_S10000x32_1_0_0_1_n_n.lhsIdx (ix2 p q) (e1.symm k) = ix2 p k := funext fun a => Fin.ext (by
  have hk := contrEquiv1_symm_val dot_S10000x64_S64x32_S10000x32_1_0_0_1_n_n 64 rfl rfl k
  match a with
  | ⟨0, _⟩ => exact lrow1 _ _
  | ⟨1, _⟩ => exact (dot_S10000x64_S64x32_S10000x32_1_0_0_1_n_n.lhsIdx_val_of_single rfl _ _).trans hk)

/-- Product 1: the right operand (the transposed weights) is read at the contracted position and the output's column. -/
theorem rhs1 (p : Fin 10000) (q : Fin 32) (k : Fin 64) :
    dot_S10000x64_S64x32_S10000x32_1_0_0_1_n_n.rhsIdx (ix2 p q) (e1.symm k) = ix2 k q := funext fun a => Fin.ext (by
  have hk := contrEquiv1_symm_val dot_S10000x64_S64x32_S10000x32_1_0_0_1_n_n 64 rfl rfl k
  match a with
  | ⟨0, _⟩ => exact (dot_S10000x64_S64x32_S10000x32_1_0_0_1_n_n.rhsIdx_val_of_single rfl _ _).trans hk
  | ⟨1, _⟩ => exact rcol1 _ _)

/-! ## The bodies at an index -/

/-- The first body: row `p`, column `q` of the stored block is `Σ_k x[p, k] · w[q, k]`. -/
theorem pay0_apply (xb : FVec Ideal S10000x64 .f32) (wb : FVec Ideal S64x64 .f32) (p : Fin 10000) (q : Fin 64) :
    k0_pay1 (F := Ideal) xb wb (ix2 p q) = ∑ k : Fin 64, xb (ix2 p k) * wb (ix2 q k) := by
  unfold k0_pay1
  refine (Ideal.matmul_constant_zero_apply dot_S10000x64_S64x64_S10000x64_1_0_0_1_n_n none _ _ (ix2 p q)).trans ?_
  rw [← Equiv.sum_comp e0.symm]
  refine Finset.sum_congr rfl fun k _ => ?_
  rw [lhs0, rhs0]
  exact congrArg (xb (ix2 p k) * ·) (transpose_ix2_apply (a := 64) (b := 64) _ transposes_S64x64_p1_0_S64x64 k q)

/-- The bias row broadcast down the rows of a block, read at row `p`, column `k`: the row's entry `k`. -/
theorem bias64_apply (bb : FVec Ideal S1x64 .f32) (p : Fin 10000) (k : Fin 64) :
    broadcastTo S10000x64 (shapeCast S1x64 bb shapeCasts_S1x64_S1x64) broadcasts_S1x64_S10000x64 (ix2 p k) = bb (ix2 (0 : Fin 1) k) := by
  rw [shapeCast_self]
  exact broadcastTo_apply bb broadcasts_S1x64_S10000x64 (ix2 p k) (ix2 (0 : Fin 1) k) (fun a => match a with
    | ⟨0, _⟩ => by show (0 : Nat) = if (1 : Nat) = 1 then 0 else _; rw [if_pos rfl]
    | ⟨1, _⟩ => by show k.val = if (64 : Nat) = 1 then 0 else k.val; rw [if_neg (by decide)])

/-- The second body: row `p`, column `q` of the stored block is `Σ_k max(s[p, k] + b[0, k], 0) · w[q, k]`. -/
theorem pay1_apply (sb : FVec Ideal S10000x64 .f32) (bb : FVec Ideal S1x64 .f32) (wb : FVec Ideal S32x64 .f32) (p : Fin 10000) (q : Fin 32) :
    k1_pay1 (F := Ideal) sb bb wb (ix2 p q)
      = ∑ k : Fin 64, FloatOps.maximumf (FloatOps.addf (sb (ix2 p k)) (bb (ix2 (0 : Fin 1) k))) (FloatOps.ofBits .f32 0x00000000#32) * wb (ix2 q k) := by
  unfold k1_pay1
  refine (Ideal.matmul_constant_zero_apply dot_S10000x64_S64x32_S10000x32_1_0_0_1_n_n none _ _ (ix2 p q)).trans ?_
  rw [← Equiv.sum_comp e1.symm]
  refine Finset.sum_congr rfl fun k _ => ?_
  rw [lhs1, rhs1]
  refine congr (congrArg HMul.hMul ?_) (transpose_ix2_apply (a := 32) (b := 64) _ transposes_S32x64_p1_0_S64x32 k q)
  show FloatOps.maximumf (FloatOps.addf (shapeCast S10000x64 sb shapeCasts_S10000x64_S10000x64 (ix2 p k)) (broadcastTo S10000x64 (shapeCast S1x64 bb shapeCasts_S1x64_S1x64) broadcasts_S1x64_S10000x64 (ix2 p k))) _ = _
  rw [shapeCast_self, bias64_apply]
  rfl

/-- The bias row broadcast down the rows of a block of the output, read at row `p`, column `q`. -/
theorem bias32_apply (bb : FVec Ideal S1x32 .f32) (p : Fin 10000) (q : Fin 32) :
    broadcastTo S10000x32 (shapeCast S1x32 bb shapeCasts_S1x32_S1x32) broadcasts_S1x32_S10000x32 (ix2 p q) = bb (ix2 (0 : Fin 1) q) := by
  rw [shapeCast_self]
  exact broadcastTo_apply bb broadcasts_S1x32_S10000x32 (ix2 p q) (ix2 (0 : Fin 1) q) (fun a => match a with
    | ⟨0, _⟩ => by show (0 : Nat) = if (1 : Nat) = 1 then 0 else _; rw [if_pos rfl]
    | ⟨1, _⟩ => by show q.val = if (32 : Nat) = 1 then 0 else q.val; rw [if_neg (by decide)])

/-- The third body: row `p`, column `q` of the stored block is `s[p, q] + b[0, q]`. -/
theorem pay2_apply (sb : FVec Ideal S10000x32 .f32) (bb : FVec Ideal S1x32 .f32) (p : Fin 10000) (q : Fin 32) :
    k2_pay1 (F := Ideal) sb bb (ix2 p q) = FloatOps.addf (sb (ix2 p q)) (bb (ix2 (0 : Fin 1) q)) := by
  unfold k2_pay1
  show FloatOps.addf (shapeCast S10000x32 sb shapeCasts_S10000x32_S10000x32 (ix2 p q)) (broadcastTo S10000x32 (shapeCast S1x32 bb shapeCasts_S1x32_S1x32) broadcasts_S1x32_S10000x32 (ix2 p q)) = _
  rw [shapeCast_self, bias32_apply]

end Cert.KernelIdeal.Pay

end
-- ==== Proof.Region0.lean ====
/-
  The first region: the product `x · W1ᵀ`, tiled over the rows.

  The grid has ten points; point `t` is handed rows `10000·t … 10000·t + 9999` of the node features (all 64
  columns) and the whole 64 × 64 weight matrix, and writes back the same rows of the output. Row `r` of a
  product depends on row `r` of the left factor only, so what point `t` writes back is block `t` of the
  whole product `Layers.layer1` of the two arrays as the region finds them; the ten blocks cover the
  100000 rows, so the output array ends holding the whole product. The entry contents `V` of the buffers
  are a parameter: the statement is used at the contents the preceding host operations leave.
-/
import proofs.«165319_j21337397526794_1_alg».proof.Proof.Gen.KernelIdeal.Frame
import proofs.«165319_j21337397526794_1_alg».proof.Proof.Payload
import proofs.«165319_j21337397526794_1_alg».proof.Proof.Spec

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten points: the features' and the output's block index is the point's
    number on the rows and 0 on the columns; the weights' block is always the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- A block product of rows `10000·n …` of `A` against the whole of `W` is, entry by entry, the whole product
    `layer1 A W` at the corresponding row of the array. -/
theorem block_eq (A : FVec Ideal S100000x64 .f32) (W : FVec Ideal S64x64 .f32)
    (xb : FVec Ideal S10000x64 .f32) (wb : FVec Ideal S64x64 .f32) (n : Nat) (hn : n < 10)
    (hx : ∀ (p : Fin 10000) (k : Fin 64), xb (ix2 p k) = A (ix2 (⟨n * 10000 + p.val, by omega⟩ : Fin 100000) k))
    (hw : ∀ (q k : Fin 64), wb (ix2 q k) = W (ix2 q k))
    (j : S10000x64.Idx) (i : S100000x64.Idx) (hi0 : (i 0).val = n * 10000 + (j 0).val) (hi1 : (i 1).val = (j 1).val) :
    k0_pay1 (F := Ideal) xb wb j = Cert.Layers.layer1 A W i := by
  obtain ⟨p, q, rfl⟩ : ∃ (p : Fin 10000) (q : Fin 64), j = ix2 p q := ⟨j 0, j 1, eq_ix2 j⟩
  rw [Pay.pay0_apply]
  unfold Cert.Layers.layer1
  refine Finset.sum_congr rfl fun k _ => ?_
  rw [hx, hw]
  refine congr (congrArg HMul.hMul (congrArg A (funext fun a => Fin.ext ?_))) (congrArg W (funext fun a => Fin.ext ?_))
  · match a with
    | ⟨0, _⟩ => show n * 10000 + p.val = (i 0).val; rw [hi0]
    | ⟨1, _⟩ => rfl
  · match a with
    | ⟨0, _⟩ => show q.val = (i 1).val; rw [hi1]
    | ⟨1, _⟩ => rfl

/-- WHAT POINT `t` WRITES BACK is block `t` of the whole product of the two arrays as the region finds them. -/
theorem flushed_eq (c : Dev nD) (t : Fin cfg0.N) :
    (dat0 V c).flushed 2 t = ((cfg0.win 2).blk t).view.read (Elt Ideal) (Cert.Layers.layer1 (V c main_arg0) (V c main_arg3)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e00, e01, e10, e11, e20, e21, ht⟩ := idx_facts t
  funext j
  show k0_pay1 (F := Ideal) (iblk0 V c 0 t) (iblk0 V c 1 t) j = Cert.Layers.layer1 (V c main_arg0) (V c main_arg3) (((cfg0.win 2).blk t).view.emb j)
  refine block_eq (V c main_arg0) (V c main_arg3) (iblk0 V c 0 t) (iblk0 V c 1 t) t.val ht (fun p k => ?_) (fun q k => ?_) j (((cfg0.win 2).blk t).view.emb j) ?_ ?_
  · show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = t.val * 10000 + p.val; rw [e00]; omega
    | ⟨1, _⟩ => show win0_0.index t (1 : Fin 2) * 64 + 1 * k.val = k.val; rw [e01]; omega
  · show V c main_arg3 (((cfg0.win 1).blk t).view.emb (ix2 q k)) = _
    refine congrArg (V c main_arg3) (funext fun a => Fin.ext ?_)
    match a with
    | ⟨0, _⟩ => show win0_1.index t (0 : Fin 2) * 64 + 1 * q.val = q.val; rw [e10]; omega
    | ⟨1, _⟩ => show win0_1.index t (1 : Fin 2) * 64 + 1 * k.val = k.val; rw [e11]; omega
  · show win0_2.index t (0 : Fin 2) * 10000 + 1 * (j 0).val = t.val * 10000 + (j 0).val; rw [e20]; omega
  · show win0_2.index t (1 : Fin 2) * 64 + 1 * (j 1).val = (j 1).val; rw [e21]; omega

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- The ten row blocks cover the array: row `r` is in the block of point `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, htv⟩ : ∃ t : Fin cfg0.N, t.val = (i 0).val / 10000 :=
    ⟨⟨(i 0).val / 10000, by have h := N_0; show _ < grid0.N; omega⟩, rfl⟩
  obtain ⟨e00, e01, e10, e11, e20, e21, ht⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; rw [e20, htv]; omega
  | ⟨1, _⟩ => show win0_2.index t (1 : Fin 2) * 64 ≤ (i 1).val ∧ (i 1).val < win0_2.index t (1 : Fin 2) * 64 + 64; rw [e21]; omega

/-- THE OUTPUT ARRAY after the region: the whole product of the features and the weights as the region finds them. -/
theorem final (c : Dev nD) : (dat0 V c).arrAt 2 cfg0.N = Cert.Layers.layer1 (V c main_arg0) (V c main_arg3) :=
  (dat0 V c).arrAt_eq_of_cover 2 _ (fun t _ => flushed_eq V c t) cover

end Cert.KernelIdeal.R0

end
-- ==== Proof.Region1.lean ====
/-
  The second region: bias, ReLU and the product with `W2ᵀ`, tiled over the rows.

  Point `t` of the ten is handed rows `10000·t … 10000·t + 9999` of the first aggregation (64 columns), the
  bias as a row `[1, 64]` and the whole 32 × 64 weight matrix, and writes back the same rows of the output
  (32 columns). Row `r` of `max(s + b, 0) · W2ᵀ` depends on row `r` of `s` only, so what point `t` writes back is
  block `t` of `Layers.layer2` of the three arrays as the region finds them, and the ten blocks cover the
  array. The entry contents `V` are a parameter.
-/
import proofs.«165319_j21337397526794_1_alg».proof.Proof.Gen.KernelIdeal.Frame
import proofs.«165319_j21337397526794_1_alg».proof.Proof.Payload
import proofs.«165319_j21337397526794_1_alg».proof.Proof.Spec

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten points: the aggregation's and the output's block index is the
    point's number on the rows and 0 on the columns; the bias row's and the weights' block is always the whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- The body on rows `10000·n …` of `S`, the bias row `B` and the whole of `W` is, entry by entry, `layer2 S B W` at the
    corresponding row of the array. -/
theorem block_eq (S : FVec Ideal S100000x64 .f32) (B : FVec Ideal S1x64 .f32) (W : FVec Ideal S32x64 .f32)
    (sb : FVec Ideal S10000x64 .f32) (bb : FVec Ideal S1x64 .f32) (wb : FVec Ideal S32x64 .f32) (n : Nat) (hn : n < 10)
    (hs : ∀ (p : Fin 10000) (k : Fin 64), sb (ix2 p k) = S (ix2 (⟨n * 10000 + p.val, by omega⟩ : Fin 100000) k))
    (hb : ∀ (k : Fin 64), bb (ix2 (0 : Fin 1) k) = B (ix2 (0 : Fin 1) k))
    (hw : ∀ (q : Fin 32) (k : Fin 64), wb (ix2 q k) = W (ix2 q k))
    (j : S10000x32.Idx) (i : S100000x32.Idx) (hi0 : (i 0).val = n * 10000 + (j 0).val) (hi1 : (i 1).val = (j 1).val) :
    k1_pay1 (F := Ideal) sb bb wb j = Cert.Layers.layer2 S B W i := by
  obtain ⟨p, q, rfl⟩ : ∃ (p : Fin 10000) (q : Fin 32), j = ix2 p q := ⟨j 0, j 1, eq_ix2 j⟩
  rw [Pay.pay1_apply]
  unfold Cert.Layers.layer2
  refine Finset.sum_congr rfl fun k _ => ?_
  rw [hs, hb, hw]
  have eS : (ix2 (⟨n * 10000 + p.val, by omega⟩ : Fin 100000) k : S100000x64.Idx) = Cert.ReferenceIdeal.Read.lidx_main_v84 i k :=
    funext fun a => Fin.ext (by
      match a with
      | ⟨0, _⟩ => show n * 10000 + p.val = (i 0).val; rw [hi0]
      | ⟨1, _⟩ => rfl)
  have eB : (ix2 (0 : Fin 1) k : S1x64.Idx) = Cert.ReferenceIdeal.Read.idx_main_v48 (Cert.ReferenceIdeal.Read.lidx_main_v84 i k) :=
    funext fun a => Fin.ext (by
      match a with
      | ⟨0, _⟩ => rfl
      | ⟨1, _⟩ => rfl)
  have eW : (ix2 q k : S32x64.Idx) = Cert.ReferenceIdeal.Read.idx_main_v83 (Cert.ReferenceIdeal.Read.ridx_main_v84 i k) :=
    funext fun a => Fin.ext (by
      match a with
      | ⟨0, _⟩ => show q.val = (i 1).val; rw [hi1]
      | ⟨1, _⟩ => rfl)
  rw [eS, eB, eW]

/-- WHAT POINT `t` WRITES BACK is block `t` of `layer2` of the three arrays as the region finds them. -/
theorem flushed_eq (c : Dev nD) (t : Fin cfg1.N) :
    (dat1 V c).flushed 3 t = ((cfg1.win 3).blk t).view.read (Elt Ideal) (Cert.Layers.layer2 (V c main_v45) (V c main_v46) (V c main_arg5)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S32x64) hz]
  obtain ⟨e00, e01, e10, e11, e20, e21, e30, e31, ht⟩ := idx_facts t
  funext j
  show k1_pay1 (F := Ideal) (iblk1 V c 0 t) (iblk1 V c 1 t) (iblk1 V c 2 t) j
    = Cert.Layers.layer2 (V c main_v45) (V c main_v46) (V c main_arg5) (((cfg1.win 3).blk t).view.emb j)
  refine block_eq (V c main_v45) (V c main_v46) (V c main_arg5) (iblk1 V c 0 t) (iblk1 V c 1 t) (iblk1 V c 2 t) t.val ht
    (fun p k => ?_) (fun k => ?_) (fun q k => ?_) j (((cfg1.win 3).blk t).view.emb j) ?_ ?_
  · show V c main_v45 (((cfg1.win 0).blk t).view.emb (ix2 p k)) = _
    refine congrArg (V c main_v45) (funext fun a => Fin.ext ?_)
    match a with
    | ⟨0, _⟩ => show win1_0.index t (0 : Fin 2) * 10000 + 1 * p.val = t.val * 10000 + p.val; rw [e00]; omega
    | ⟨1, _⟩ => show win1_0.index t (1 : Fin 2) * 64 + 1 * k.val = k.val; rw [e01]; omega
  · show V c main_v46 (((cfg1.win 1).blk t).view.emb (ix2 (0 : Fin 1) k)) = _
    refine congrArg (V c main_v46) (funext fun a => Fin.ext ?_)
    match a with
    | ⟨0, _⟩ => show win1_1.index t (0 : Fin 2) * 1 + 1 * 0 = 0; rw [e10]
    | ⟨1, _⟩ => show win1_1.index t (1 : Fin 2) * 64 + 1 * k.val = k.val; rw [e11]; omega
  · show V c main_arg5 (((cfg1.win 2).blk t).view.emb (ix2 q k)) = _
    refine congrArg (V c main_arg5) (funext fun a => Fin.ext ?_)
    match a with
    | ⟨0, _⟩ => show win1_2.index t (0 : Fin 2) * 32 + 1 * q.val = q.val; rw [e20]; omega
    | ⟨1, _⟩ => show win1_2.index t (1 : Fin 2) * 64 + 1 * k.val = k.val; rw [e21]; omega
  · show win1_3.index t (0 : Fin 2) * 10000 + 1 * (j 0).val = t.val * 10000 + (j 0).val; rw [e30]; omega
  · show win1_3.index t (1 : Fin 2) * 32 + 1 * (j 1).val = (j 1).val; rw [e31]; omega

/-- An index of the output array is in point `t`'s block iff each coordinate is in the block's range on its axis. -/
theorem mem_blk (t : Fin cfg1.N) (i : S100000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v47).slice (win1_3.rect t)).set ↔ _
  rw [View.set_slice_whole, Rect.mem_set_unit]
  exact Iff.rfl

/-- The ten row blocks cover the array: row `r` is in the block of point `r / 10000`. -/
theorem cover (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, htv⟩ : ∃ t : Fin cfg1.N, t.val = (i 0).val / 10000 :=
    ⟨⟨(i 0).val / 10000, by have h := N_1; show _ < grid1.N; omega⟩, rfl⟩
  obtain ⟨e00, e01, e10, e11, e20, e21, e30, e31, ht⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; rw [e30, htv]; omega
  | ⟨1, _⟩ => show win1_3.index t (1 : Fin 2) * 32 ≤ (i 1).val ∧ (i 1).val < win1_3.index t (1 : Fin 2) * 32 + 32; rw [e31]; omega

/-- THE OUTPUT ARRAY after the region: `layer2` of the aggregation, the bias row and the weights as the region finds them. -/
theorem final (c : Dev nD) : (dat1 V c).arrAt 3 cfg1.N = Cert.Layers.layer2 (V c main_v45) (V c main_v46) (V c main_arg5) :=
  (dat1 V c).arrAt_eq_of_cover 3 _ (fun t _ => flushed_eq V c t) cover

end Cert.KernelIdeal.R1

end
-- ==== Proof.Region2.lean ====
/-
  The third region: the output bias, tiled over the rows.

  Point `t` of the ten is handed rows `10000·t … 10000·t + 9999` of the second aggregation (32 columns) and
  the bias as a row `[1, 32]`, and writes back the same rows of the result with the bias added to every
  row: block `t` of `Layers.outBias` of the two arrays as the region finds them. The ten blocks cover the
  array. The entry contents `V` are a parameter.
-/
import proofs.«165319_j21337397526794_1_alg».proof.Proof.Gen.KernelIdeal.Frame
import proofs.«165319_j21337397526794_1_alg».proof.Proof.Payload
import proofs.«165319_j21337397526794_1_alg».proof.Proof.Spec

set_option maxRecDepth 16384

noncomputable section

namespace Cert.KernelIdeal.R2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten points: the aggregation's and the result's block index is the
    point's number on the rows and 0 on the columns; the bias row's block is always the whole row. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- The body on rows `10000·n …` of `S` and the bias row `B` is, entry by entry, `outBias S B` at the corresponding row
    of the array. -/
theorem block_eq (S : FVec Ideal S100000x32 .f32) (B : FVec Ideal S1x32 .f32)
    (sb : FVec Ideal S10000x32 .f32) (bb : FVec Ideal S1x32 .f32) (n : Nat) (hn : n < 10)
    (hs : ∀ (p : Fin 10000) (q : Fin 32), sb (ix2 p q) = S (ix2 (⟨n * 10000 + p.val, by omega⟩ : Fin 100000) q))
    (hb : ∀ (q : Fin 32), bb (ix2 (0 : Fin 1) q) = B (ix2 (0 : Fin 1) q))
    (j : S10000x32.Idx) (i : S100000x32.Idx) (hi0 : (i 0).val = n * 10000 + (j 0).val) (hi1 : (i 1).val = (j 1).val) :
    k2_pay1 (F := Ideal) sb bb j = Cert.Layers.outBias S B i := by
  obtain ⟨p, q, rfl⟩ : ∃ (p : Fin 10000) (q : Fin 32), j = ix2 p q := ⟨j 0, j 1, eq_ix2 j⟩
  rw [Pay.pay2_apply]
  unfold Cert.Layers.outBias
  rw [hs, hb]
  have eS : (ix2 (⟨n * 10000 + p.val, by omega⟩ : Fin 100000) q : S100000x32.Idx) = i :=
    funext fun a => Fin.ext (by
      match a with
      | ⟨0, _⟩ => show n * 10000 + p.val = (i 0).val; rw [hi0]
      | ⟨1, _⟩ => show q.val = (i 1).val; rw [hi1])
  have eB : (ix2 (0 : Fin 1) q : S1x32.Idx) = Cert.ReferenceIdeal.Read.idx_main_v99 i :=
    funext fun a => Fin.ext (by
      match a with
      | ⟨0, _⟩ => rfl
      | ⟨1, _⟩ => show q.val = (i 1).val; rw [hi1])
  rw [eS, eB]

/-- WHAT POINT `t` WRITES BACK is block `t` of `outBias` of the two arrays as the region finds them. -/
theorem flushed_eq (c : Dev nD) (t : Fin cfg2.N) :
    (dat2 V c).flushed 2 t = ((cfg2.win 2).blk t).view.read (Elt Ideal) (Cert.Layers.outBias (V c main_v60) (V c main_v61)) := by
  show (cfg2.win 2).cut (grid2.coords t) ((dat2 V c).after 2 t) = _
  rw [after2_2]
  unfold out2_2
  rw [View.canon_unit_zero hz]
  simp only [View.ld_unit_zero (S := S10000x32) hz, View.ld_unit_zero (S := S1x32) hz]
  obtain ⟨e00, e01, e10, e11, e20, e21, ht⟩ := idx_facts t
  funext j
  show k2_pay1 (F := Ideal) (iblk2 V c 0 t) (iblk2 V c 1 t) j
    = Cert.Layers.outBias (V c main_v60) (V c main_v61) (((cfg2.win 2).blk t).view.emb j)
  refine block_eq (V c main_v60) (V c main_v61) (iblk2 V c 0 t) (iblk2 V c 1 t) t.val ht
    (fun p q => ?_) (fun q => ?_) j (((cfg2.win 2).blk t).view.emb j) ?_ ?_
  · show V c main_v60 (((cfg2.win 0).blk t).view.emb (ix2 p q)) = _
    refine congrArg (V c main_v60) (funext fun a => Fin.ext ?_)
    match a with
    | ⟨0, _⟩ => show win2_0.index t (0 : Fin 2) * 10000 + 1 * p.val = t.val * 10000 + p.val; rw [e00]; omega
    | ⟨1, _⟩ => show win2_0.index t (1 : Fin 2) * 32 + 1 * q.val = q.val; rw [e01]; omega
  · show V c main_v61 (((cfg2.win 1).blk t).view.emb (ix2 (0 : Fin 1) q)) = _
    refine congrArg (V c main_v61) (funext fun a => Fin.ext ?_)
    match a with
    | ⟨0, _⟩ => show win2_1.index t (0 : Fin 2) * 1 + 1 * 0 = 0; rw [e10]
    | ⟨1, _⟩ => show win2_1.index t (1 : Fin 2) * 32 + 1 * q.val = q.val; rw [e11]; omega
  · show win2_2.index t (0 : Fin 2) * 10000 + 1 * (j 0).val = t.val * 10000 + (j 0).val; rw [e20]; omega
  · show win2_2.index t (1 : Fin 2) * 32 + 1 * (j 1).val = (j 1).val; rw [e21]; omega

/-- An index of the result array is in point `t`'s block iff each coordinate is in the block's range on its axis. -/
theorem mem_blk (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v62).slice (win2_2.rect t)).set ↔ _
  rw [View.set_slice_whole, Rect.mem_set_unit]
  exact Iff.rfl

/-- The ten row blocks cover the array: row `r` is in the block of point `r / 10000`. -/
theorem cover (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, htv⟩ : ∃ t : Fin cfg2.N, t.val = (i 0).val / 10000 :=
    ⟨⟨(i 0).val / 10000, by have h := N_2; show _ < grid2.N; omega⟩, rfl⟩
  obtain ⟨e00, e01, e10, e11, e20, e21, ht⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; rw [e20, htv]; omega
  | ⟨1, _⟩ => show win2_2.index t (1 : Fin 2) * 32 ≤ (i 1).val ∧ (i 1).val < win2_2.index t (1 : Fin 2) * 32 + 32; rw [e21]; omega

/-- THE RESULT ARRAY after the region: `outBias` of the aggregation and the bias row as the region finds them. -/
theorem final (c : Dev nD) : (dat2 V c).arrAt 2 cfg2.N = Cert.Layers.outBias (V c main_v60) (V c main_v61) :=
  (dat2 V c).arrAt_eq_of_cover 2 _ (fun t _ => flushed_eq V c t) cover

end Cert.KernelIdeal.R2

end
-- ==== Proof.Fold.lean ====
/-
  The contents of the kernel's buffers at each boundary of @main, read as the reference's own stages.

  Both programs compute, from the edge list and the edge weights alone, the same three things — the
  sources and the destinations with a self loop appended for every node, and the symmetric
  normalisation coefficient of every edge (the product of the inverse square roots of the two end
  nodes' weighted degrees with the edge's weight, zero where a degree is not positive) — and then twice
  the same sparse aggregation: gather the rows of a dense result along the sources, scale each by its
  edge's coefficient, and sum into the destination rows. They are the SAME host operations in the two
  programs, applied to equal operands; none of them is opened here. Each stretch of host operations is
  stated over an ARBITRARY valuation `U` of the buffers: if `U` holds the reference's stages at the few
  buffers the stretch reads from before it, the stretch leaves the reference's next stage. (The reference
  computes the coefficients twice, once per layer; the two copies are one term, so the kernel's single
  copy meets both.)

  The three regions contribute the dense steps (Region0, Region1, Region2: each output array is the
  layer function of the arrays the region finds), and the reference's dense stages are those layer
  functions (Spec). Chaining the boundaries `Gen.W0 … Gen.W8`: the result buffer ends at the
  reference's result stage of the arguments.
-/
import proofs.«165319_j21337397526794_1_alg».proof.Proof.Gen.KernelIdeal.Frame
import proofs.«165319_j21337397526794_1_alg».proof.Proof.Gen.ReferenceIdeal.Read
import proofs.«165319_j21337397526794_1_alg».proof.Proof.Spec
import proofs.«165319_j21337397526794_1_alg».proof.Proof.Region0
import proofs.«165319_j21337397526794_1_alg».proof.Proof.Region1
import proofs.«165319_j21337397526794_1_alg».proof.Proof.Region2
import Idealize.ShloMosaic.Lib.StableHlo.Run
import Idealize.ShloMosaic.Lib.ValueLayout

set_option maxRecDepth 16384

noncomputable section

namespace Cert.KernelIdeal.Fold

open Cert.KernelIdeal Cert.KernelIdeal.Gen
open Idealize.ShloMosaic Idealize.ShloMosaic.TcCoe Idealize.ShloMosaic.StableHlo Idealize.ShloMosaic.ValueIdx
open Idealize.SL Idealize.SL.Sem

/-- An operation's result read at a buffer: at its own result buffer its function's value of the operands' contents, at
    any other buffer what was there before (used for the operands that sit inside a concatenation's list of pieces). -/
macro "results_rest" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- Contents carried to a typed reference's buffer and back are unchanged. -/
theorem ofBuf_toBuf {T : BufTy} (x : TRef sig T) (v : T.Contents (Elt Ideal)) : x.ofBuf (x.toBuf v) = v := by
  obtain ⟨r, rfl, _, _⟩ := x; rfl

/-! ## The first stretch: the edge lists with their self loops, the weights, the degrees -/

section FirstStretch
variable (U : Valuation τ sig (Elt Ideal)) (x1 : (⟨S2x1600000, .i32⟩ : BufTy).Contents (Elt Ideal)) (x2 : (⟨S1600000, .f32⟩ : BufTy).Contents (Elt Ideal))

/-- The sources, a self loop appended for every node. -/
theorem A_v5 (h1 : U (Proc.devRef .tc main_arg1) = x1) : StableHlo.after hostOps0 U (Proc.devRef .tc main_v5) = Cert.ReferenceIdeal.Read.val_main_v5 (F := Ideal) x1 := by
  dsimp only [hostOps0]
  after_results_simp
  results_rest
  rw [h1]
  rfl

/-- The destinations, a self loop appended for every node. -/
theorem A_v6 (h1 : U (Proc.devRef .tc main_arg1) = x1) : StableHlo.after hostOps0 U (Proc.devRef .tc main_v6) = Cert.ReferenceIdeal.Read.val_main_v6 (F := Ideal) x1 := by
  dsimp only [hostOps0]
  after_results_simp
  results_rest
  rw [h1]
  rfl

/-- The edge weights, a one appended for every self loop. -/
theorem A_v8 (h2 : U (Proc.devRef .tc main_arg2) = x2) : StableHlo.after hostOps0 U (Proc.devRef .tc main_v8) = Cert.ReferenceIdeal.Read.val_main_v8 (F := Ideal) x2 := by
  dsimp only [hostOps0]
  after_results_simp
  results_rest
  rw [h2]
  rfl

/-- Where a node's weighted degree is positive. -/
theorem A_v13 (h1 : U (Proc.devRef .tc main_arg1) = x1) (h2 : U (Proc.devRef .tc main_arg2) = x2) :
    StableHlo.after hostOps0 U (Proc.devRef .tc main_v13) = Cert.ReferenceIdeal.Read.val_main_v13 (F := Ideal) x1 x2 := by
  dsimp only [hostOps0]
  after_results_simp
  results_rest
  rw [h1, h2]
  rfl

/-- The inverse square root of every node's weighted degree. -/
theorem A_v14 (h1 : U (Proc.devRef .tc main_arg1) = x1) (h2 : U (Proc.devRef .tc main_arg2) = x2) :
    StableHlo.after hostOps0 U (Proc.devRef .tc main_v14) = Cert.ReferenceIdeal.Read.val_main_v14 (F := Ideal) x1 x2 := by
  dsimp only [hostOps0]
  after_results_simp
  results_rest
  rw [h1, h2]
  rfl

/-- The zero the selection falls back to. -/
theorem A_cst2 : StableHlo.after hostOps0 U (Proc.devRef .tc main_cst_2) = Cert.ReferenceIdeal.Read.val_main_cst_2 (F := Ideal) := by
  dsimp only [hostOps0]
  after_results_simp
  rfl

end FirstStretch

/-! ## The selection: the inverse square root where the degree is positive, zero elsewhere -/

theorem B_v15 (U : Valuation τ sig (Elt Ideal)) (x1 : (⟨S2x1600000, .i32⟩ : BufTy).Contents (Elt Ideal)) (x2 : (⟨S1600000, .f32⟩ : BufTy).Contents (Elt Ideal))
    (h13 : U (Proc.devRef .tc main_v13) = Cert.ReferenceIdeal.Read.val_main_v13 (F := Ideal) x1 x2)
    (h14 : U (Proc.devRef .tc main_v14) = Cert.ReferenceIdeal.Read.val_main_v14 (F := Ideal) x1 x2)
    (hc : U (Proc.devRef .tc main_cst_2) = Cert.ReferenceIdeal.Read.val_main_cst_2 (F := Ideal)) :
    StableHlo.after hostOps0_1 U (Proc.devRef .tc main_v15) = Cert.ReferenceIdeal.Read.val_main_v15 (F := Ideal) x1 x2 := by
  have c15 : ∀ v : (⟨S100000, .f32⟩ : BufTy).Contents (Elt Ideal), (TRef.of (sig := sig) (T := ⟨S100000, .f32⟩) main_v15).toBuf v = v := fun v => cast_eq _ _
  have c13 : ∀ v : (⟨S100000, .i1⟩ : BufTy).Contents (Elt Ideal), (TRef.of (sig := sig) (T := ⟨S100000, .i1⟩) main_v13).ofBuf v = v := fun v => cast_eq _ _
  have c14 : ∀ v : (⟨S100000, .f32⟩ : BufTy).Contents (Elt Ideal), (TRef.of (sig := sig) (T := ⟨S100000, .f32⟩) main_v14).ofBuf v = v := fun v => cast_eq _ _
  have cc : ∀ v : (⟨S_, .f32⟩ : BufTy).Contents (Elt Ideal), (TRef.of (sig := sig) (T := ⟨S_, .f32⟩) main_cst_2).ofBuf v = v := fun v => cast_eq _ _
  dsimp only [hostOps0_1]
  after_results_simp
  rw [h13, h14, hc, ofBuf_toBuf, ofBuf_toBuf]
  rw [c15, c13, c14, cc]
  rfl

theorem B_keep_v5 (U : Valuation τ sig (Elt Ideal)) : StableHlo.after hostOps0_1 U (Proc.devRef .tc main_v5) = U (Proc.devRef .tc main_v5) := by
  dsimp only [hostOps0_1]
  after_results_simp

theorem B_keep_v6 (U : Valuation τ sig (Elt Ideal)) : StableHlo.after hostOps0_1 U (Proc.devRef .tc main_v6) = U (Proc.devRef .tc main_v6) := by
  dsimp only [hostOps0_1]
  after_results_simp

theorem B_keep_v8 (U : Valuation τ sig (Elt Ideal)) : StableHlo.after hostOps0_1 U (Proc.devRef .tc main_v8) = U (Proc.devRef .tc main_v8) := by
  dsimp only [hostOps0_1]
  after_results_simp

/-! ## The coefficients: the two end nodes' factors gathered along the edges, times the weight -/

theorem C_v31 (U : Valuation τ sig (Elt Ideal)) (x1 : (⟨S2x1600000, .i32⟩ : BufTy).Contents (Elt Ideal)) (x2 : (⟨S1600000, .f32⟩ : BufTy).Contents (Elt Ideal))
    (h15 : U (Proc.devRef .tc main_v15) = Cert.ReferenceIdeal.Read.val_main_v15 (F := Ideal) x1 x2)
    (h5 : U (Proc.devRef .tc main_v5) = Cert.ReferenceIdeal.Read.val_main_v5 (F := Ideal) x1)
    (h6 : U (Proc.devRef .tc main_v6) = Cert.ReferenceIdeal.Read.val_main_v6 (F := Ideal) x1)
    (h8 : U (Proc.devRef .tc main_v8) = Cert.ReferenceIdeal.Read.val_main_v8 (F := Ideal) x2) :
    StableHlo.after hostOps0_2 U (Proc.devRef .tc main_v31) = Cert.ReferenceIdeal.Read.val_main_v31 (F := Ideal) x1 x2 := by
  dsimp only [hostOps0_2]
  after_results_simp
  rw [h15, h5, h6, h8]
  rfl

theorem C_keep_v5 (U : Valuation τ sig (Elt Ideal)) : StableHlo.after hostOps0_2 U (Proc.devRef .tc main_v5) = U (Proc.devRef .tc main_v5) := by
  dsimp only [hostOps0_2]
  after_results_simp

theorem C_keep_v6 (U : Valuation τ sig (Elt Ideal)) : StableHlo.after hostOps0_2 U (Proc.devRef .tc main_v6) = U (Proc.devRef .tc main_v6) := by
  dsimp only [hostOps0_2]
  after_results_simp

/-! ## The first aggregation, and the first bias as a row -/

theorem D_v45 (U : Valuation τ sig (Elt Ideal)) (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal))
    (h5 : U (Proc.devRef .tc main_v5) = Cert.ReferenceIdeal.Read.val_main_v5 (F := Ideal) x1)
    (h6 : U (Proc.devRef .tc main_v6) = Cert.ReferenceIdeal.Read.val_main_v6 (F := Ideal) x1)
    (h31 : U (Proc.devRef .tc main_v31) = Cert.ReferenceIdeal.Read.val_main_v31 (F := Ideal) x1 x2)
    (h32 : U (Proc.devRef .tc main_v32) = Cert.ReferenceIdeal.Read.val_main_v33 (F := Ideal) x0 x3) :
    StableHlo.after hostOps1 U (Proc.devRef .tc main_v45) = Cert.ReferenceIdeal.Read.val_main_v46 (F := Ideal) x0 x1 x2 x3 := by
  dsimp only [hostOps1]
  after_results_simp
  rw [h5, h6, h31, h32]
  rfl

/-- The bias vector reshaped to a row holds, at `(0, k)`, the vector's entry `k`: the row the reference broadcasts. -/
theorem D_v46 (U : Valuation τ sig (Elt Ideal)) (x4 : (⟨S64, .f32⟩ : BufTy).Contents (Elt Ideal)) (h4 : U (Proc.devRef .tc main_arg4) = x4) :
    StableHlo.after hostOps1 U (Proc.devRef .tc main_v46) = Cert.ReferenceIdeal.Read.val_main_v47 (F := Ideal) x4 := by
  dsimp only [hostOps1]
  after_results_simp
  rw [h4]
  funext i
  obtain ⟨u, k, rfl⟩ : ∃ (u : Fin 1) (k : Fin 64), i = ix2 u k := ⟨i 0, i 1, eq_ix2 i⟩
  rw [Cert.ReferenceIdeal.Read.val_main_v47_apply]
  exact (shapeCast_a_1a_apply (a := 64) x4 shapeCasts_S64_S1x64 u k).trans
    (congrArg x4 (funext fun a => Fin.ext (by match a with | ⟨0, _⟩ => rfl)))

theorem D_keep_v5 (U : Valuation τ sig (Elt Ideal)) : StableHlo.after hostOps1 U (Proc.devRef .tc main_v5) = U (Proc.devRef .tc main_v5) := by
  dsimp only [hostOps1]
  after_results_simp

theorem D_keep_v6 (U : Valuation τ sig (Elt Ideal)) : StableHlo.after hostOps1 U (Proc.devRef .tc main_v6) = U (Proc.devRef .tc main_v6) := by
  dsimp only [hostOps1]
  after_results_simp

theorem D_keep_v31 (U : Valuation τ sig (Elt Ideal)) : StableHlo.after hostOps1 U (Proc.devRef .tc main_v31) = U (Proc.devRef .tc main_v31) := by
  dsimp only [hostOps1]
  after_results_simp

theorem D_keep_arg5 (U : Valuation τ sig (Elt Ideal)) : StableHlo.after hostOps1 U (Proc.devRef .tc main_arg5) = U (Proc.devRef .tc main_arg5) := by
  dsimp only [hostOps1]
  after_results_simp

theorem D_keep_arg6 (U : Valuation τ sig (Elt Ideal)) : StableHlo.after hostOps1 U (Proc.devRef .tc main_arg6) = U (Proc.devRef .tc main_arg6) := by
  dsimp only [hostOps1]
  after_results_simp

/-! ## The second aggregation, and the second bias as a row -/

theorem E_v60 (U : Valuation τ sig (Elt Ideal)) (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S32x64, .f32⟩ : BufTy).Contents (Elt Ideal))
    (h5 : U (Proc.devRef .tc main_v5) = Cert.ReferenceIdeal.Read.val_main_v5 (F := Ideal) x1)
    (h6 : U (Proc.devRef .tc main_v6) = Cert.ReferenceIdeal.Read.val_main_v6 (F := Ideal) x1)
    (h31 : U (Proc.devRef .tc main_v31) = Cert.ReferenceIdeal.Read.val_main_v31 (F := Ideal) x1 x2)
    (h47 : U (Proc.devRef .tc main_v47) = Cert.ReferenceIdeal.Read.val_main_v84 (F := Ideal) x0 x1 x2 x3 x4 x5) :
    StableHlo.after hostOps2 U (Proc.devRef .tc main_v60) = Cert.ReferenceIdeal.Read.val_main_v97 (F := Ideal) x0 x1 x2 x3 x4 x5 := by
  dsimp only [hostOps2]
  after_results_simp
  rw [h5, h6, h31, h47]
  rfl

/-- The output bias reshaped to a row holds, at `(0, q)`, the vector's entry `q`. -/
theorem E_v61 (U : Valuation τ sig (Elt Ideal)) (x6 : (⟨S32, .f32⟩ : BufTy).Contents (Elt Ideal)) (h6 : U (Proc.devRef .tc main_arg6) = x6) :
    StableHlo.after hostOps2 U (Proc.devRef .tc main_v61) = Cert.ReferenceIdeal.Read.val_main_v98 (F := Ideal) x6 := by
  dsimp only [hostOps2]
  after_results_simp
  rw [h6]
  funext i
  obtain ⟨u, q, rfl⟩ : ∃ (u : Fin 1) (q : Fin 32), i = ix2 u q := ⟨i 0, i 1, eq_ix2 i⟩
  rw [Cert.ReferenceIdeal.Read.val_main_v98_apply]
  exact (shapeCast_a_1a_apply (a := 32) x6 shapeCasts_S32_S1x32 u q).trans
    (congrArg x6 (funext fun a => Fin.ext (by match a with | ⟨0, _⟩ => rfl)))

/-! ## The boundaries of @main, from the launch memory `m` -/

section Boundaries
variable (m : (ℓ : Loc nD τ sig) → Buf (Elt Ideal) ℓ) (ρ : Dev nD → PrngReg) (c : Dev nD)

/-! ### After the first stretch -/
theorem v5_W1 : W1 m ρ c (Proc.devRef .tc main_v5) = Cert.ReferenceIdeal.Read.val_main_v5 (F := Ideal) (m ((c : Thread nD τ).loc main_arg1)) := A_v5 (W0 m ρ c) _ rfl
theorem v6_W1 : W1 m ρ c (Proc.devRef .tc main_v6) = Cert.ReferenceIdeal.Read.val_main_v6 (F := Ideal) (m ((c : Thread nD τ).loc main_arg1)) := A_v6 (W0 m ρ c) _ rfl
theorem v8_W1 : W1 m ρ c (Proc.devRef .tc main_v8) = Cert.ReferenceIdeal.Read.val_main_v8 (F := Ideal) (m ((c : Thread nD τ).loc main_arg2)) := A_v8 (W0 m ρ c) _ rfl
theorem v13_W1 : W1 m ρ c (Proc.devRef .tc main_v13) = Cert.ReferenceIdeal.Read.val_main_v13 (F := Ideal) (m ((c : Thread nD τ).loc main_arg1)) (m ((c : Thread nD τ).loc main_arg2)) := A_v13 (W0 m ρ c) _ _ rfl rfl
theorem v14_W1 : W1 m ρ c (Proc.devRef .tc main_v14) = Cert.ReferenceIdeal.Read.val_main_v14 (F := Ideal) (m ((c : Thread nD τ).loc main_arg1)) (m ((c : Thread nD τ).loc main_arg2)) := A_v14 (W0 m ρ c) _ _ rfl rfl
theorem cst2_W1 : W1 m ρ c (Proc.devRef .tc main_cst_2) = Cert.ReferenceIdeal.Read.val_main_cst_2 (F := Ideal) := A_cst2 (W0 m ρ c)

/-! ### After the selection -/
theorem v15_W2 : W2 m ρ c (Proc.devRef .tc main_v15) = Cert.ReferenceIdeal.Read.val_main_v15 (F := Ideal) (m ((c : Thread nD τ).loc main_arg1)) (m ((c : Thread nD τ).loc main_arg2)) :=
  B_v15 (W1 m ρ c) _ _ (v13_W1 m ρ c) (v14_W1 m ρ c) (cst2_W1 m ρ c)
theorem v5_W2 : W2 m ρ c (Proc.devRef .tc main_v5) = Cert.ReferenceIdeal.Read.val_main_v5 (F := Ideal) (m ((c : Thread nD τ).loc main_arg1)) := (B_keep_v5 (W1 m ρ c)).trans (v5_W1 m ρ c)
theorem v6_W2 : W2 m ρ c (Proc.devRef .tc main_v6) = Cert.ReferenceIdeal.Read.val_main_v6 (F := Ideal) (m ((c : Thread nD τ).loc main_arg1)) := (B_keep_v6 (W1 m ρ c)).trans (v6_W1 m ρ c)
theorem v8_W2 : W2 m ρ c (Proc.devRef .tc main_v8) = Cert.ReferenceIdeal.Read.val_main_v8 (F := Ideal) (m ((c : Thread nD τ).loc main_arg2)) := (B_keep_v8 (W1 m ρ c)).trans (v8_W1 m ρ c)

/-! ### At the first region's entry -/
theorem v31_W3 : W3 m ρ c (Proc.devRef .tc main_v31) = Cert.ReferenceIdeal.Read.val_main_v31 (F := Ideal) (m ((c : Thread nD τ).loc main_arg1)) (m ((c : Thread nD τ).loc main_arg2)) :=
  C_v31 (W2 m ρ c) _ _ (v15_W2 m ρ c) (v5_W2 m ρ c) (v6_W2 m ρ c) (v8_W2 m ρ c)
theorem v5_W3 : W3 m ρ c (Proc.devRef .tc main_v5) = Cert.ReferenceIdeal.Read.val_main_v5 (F := Ideal) (m ((c : Thread nD τ).loc main_arg1)) := (C_keep_v5 (W2 m ρ c)).trans (v5_W2 m ρ c)
theorem v6_W3 : W3 m ρ c (Proc.devRef .tc main_v6) = Cert.ReferenceIdeal.Read.val_main_v6 (F := Ideal) (m ((c : Thread nD τ).loc main_arg1)) := (C_keep_v6 (W2 m ρ c)).trans (v6_W2 m ρ c)
/-- No host operation before the first region writes argument 0. -/
theorem arg0_W3 : W3 m ρ c (Proc.devRef .tc main_arg0) = (m ((c : Thread nD τ).loc main_arg0)) := by
  dsimp only [W3, W2, W1, hostOps0_2, hostOps0_1, hostOps0]
  after_results_simp
/-- No host operation before the first region writes argument 3. -/
theorem arg3_W3 : W3 m ρ c (Proc.devRef .tc main_arg3) = (m ((c : Thread nD τ).loc main_arg3)) := by
  dsimp only [W3, W2, W1, hostOps0_2, hostOps0_1, hostOps0]
  after_results_simp
/-- No host operation before the first region writes argument 4. -/
theorem arg4_W3 : W3 m ρ c (Proc.devRef .tc main_arg4) = (m ((c : Thread nD τ).loc main_arg4)) := by
  dsimp only [W3, W2, W1, hostOps0_2, hostOps0_1, hostOps0]
  after_results_simp
/-- No host operation before the first region writes argument 5. -/
theorem arg5_W3 : W3 m ρ c (Proc.devRef .tc main_arg5) = (m ((c : Thread nD τ).loc main_arg5)) := by
  dsimp only [W3, W2, W1, hostOps0_2, hostOps0_1, hostOps0]
  after_results_simp
/-- No host operation before the first region writes argument 6. -/
theorem arg6_W3 : W3 m ρ c (Proc.devRef .tc main_arg6) = (m ((c : Thread nD τ).loc main_arg6)) := by
  dsimp only [W3, W2, W1, hostOps0_2, hostOps0_1, hostOps0]
  after_results_simp

/-! ### At the first region's exit: its output array is the first product; every other buffer is as entered -/
theorem v32_W4 : W4 m ρ c (Proc.devRef .tc main_v32) = Cert.ReferenceIdeal.Read.val_main_v33 (F := Ideal) (m ((c : Thread nD τ).loc main_arg0)) (m ((c : Thread nD τ).loc main_arg3)) :=
  (W4_arr m ρ c 2).trans ((R0.final (V3 m ρ) c).trans
    ((congr (congrArg Cert.Layers.layer1 (arg0_W3 m ρ c)) (arg3_W3 m ρ c)).trans (Cert.Layers.ref_layer1 _ _).symm))
theorem v5_W4 : W4 m ρ c (Proc.devRef .tc main_v5) = Cert.ReferenceIdeal.Read.val_main_v5 (F := Ideal) (m ((c : Thread nD τ).loc main_arg1)) := (W4_of_ne m ρ c main_v5 (by decide)).trans (v5_W3 m ρ c)
theorem v6_W4 : W4 m ρ c (Proc.devRef .tc main_v6) = Cert.ReferenceIdeal.Read.val_main_v6 (F := Ideal) (m ((c : Thread nD τ).loc main_arg1)) := (W4_of_ne m ρ c main_v6 (by decide)).trans (v6_W3 m ρ c)
theorem v31_W4 : W4 m ρ c (Proc.devRef .tc main_v31) = Cert.ReferenceIdeal.Read.val_main_v31 (F := Ideal) (m ((c : Thread nD τ).loc main_arg1)) (m ((c : Thread nD τ).loc main_arg2)) := (W4_of_ne m ρ c main_v31 (by decide)).trans (v31_W3 m ρ c)
theorem arg4_W4 : W4 m ρ c (Proc.devRef .tc main_arg4) = (m ((c : Thread nD τ).loc main_arg4)) := (W4_of_ne m ρ c main_arg4 (by decide)).trans (arg4_W3 m ρ c)
theorem arg5_W4 : W4 m ρ c (Proc.devRef .tc main_arg5) = (m ((c : Thread nD τ).loc main_arg5)) := (W4_of_ne m ρ c main_arg5 (by decide)).trans (arg5_W3 m ρ c)
theorem arg6_W4 : W4 m ρ c (Proc.devRef .tc main_arg6) = (m ((c : Thread nD τ).loc main_arg6)) := (W4_of_ne m ρ c main_arg6 (by decide)).trans (arg6_W3 m ρ c)

/-! ### At the second region's entry -/
theorem v45_W5 : W5 m ρ c (Proc.devRef .tc main_v45) = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) :=
  D_v45 (W4 m ρ c) _ _ _ _ (v5_W4 m ρ c) (v6_W4 m ρ c) (v31_W4 m ρ c) (v32_W4 m ρ c)
theorem v46_W5 : W5 m ρ c (Proc.devRef .tc main_v46) = Cert.ReferenceIdeal.Read.val_main_v47 (F := Ideal) (m ((c : Thread nD τ).loc main_arg4)) := D_v46 (W4 m ρ c) _ (arg4_W4 m ρ c)
theorem arg5_W5 : W5 m ρ c (Proc.devRef .tc main_arg5) = (m ((c : Thread nD τ).loc main_arg5)) := (D_keep_arg5 (W4 m ρ c)).trans (arg5_W4 m ρ c)
theorem arg6_W5 : W5 m ρ c (Proc.devRef .tc main_arg6) = (m ((c : Thread nD τ).loc main_arg6)) := (D_keep_arg6 (W4 m ρ c)).trans (arg6_W4 m ρ c)
theorem v5_W5 : W5 m ρ c (Proc.devRef .tc main_v5) = Cert.ReferenceIdeal.Read.val_main_v5 (F := Ideal) (m ((c : Thread nD τ).loc main_arg1)) := (D_keep_v5 (W4 m ρ c)).trans (v5_W4 m ρ c)
theorem v6_W5 : W5 m ρ c (Proc.devRef .tc main_v6) = Cert.ReferenceIdeal.Read.val_main_v6 (F := Ideal) (m ((c : Thread nD τ).loc main_arg1)) := (D_keep_v6 (W4 m ρ c)).trans (v6_W4 m ρ c)
theorem v31_W5 : W5 m ρ c (Proc.devRef .tc main_v31) = Cert.ReferenceIdeal.Read.val_main_v31 (F := Ideal) (m ((c : Thread nD τ).loc main_arg1)) (m ((c : Thread nD τ).loc main_arg2)) := (D_keep_v31 (W4 m ρ c)).trans (v31_W4 m ρ c)

/-! ### At the second region's exit: its output array is the second product of the ReLU -/
theorem v47_W6 : W6 m ρ c (Proc.devRef .tc main_v47) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_arr m ρ c 3).trans ((R1.final (V5 m ρ) c).trans
    ((congr (congr (congrArg Cert.Layers.layer2 (v45_W5 m ρ c)) (v46_W5 m ρ c)) (arg5_W5 m ρ c)).trans (Cert.Layers.ref_layer2 _ _ _ _ _ _).symm))
theorem v5_W6 : W6 m ρ c (Proc.devRef .tc main_v5) = Cert.ReferenceIdeal.Read.val_main_v5 (F := Ideal) (m ((c : Thread nD τ).loc main_arg1)) := (W6_of_ne m ρ c main_v5 (by decide)).trans (v5_W5 m ρ c)
theorem v6_W6 : W6 m ρ c (Proc.devRef .tc main_v6) = Cert.ReferenceIdeal.Read.val_main_v6 (F := Ideal) (m ((c : Thread nD τ).loc main_arg1)) := (W6_of_ne m ρ c main_v6 (by decide)).trans (v6_W5 m ρ c)
theorem v31_W6 : W6 m ρ c (Proc.devRef .tc main_v31) = Cert.ReferenceIdeal.Read.val_main_v31 (F := Ideal) (m ((c : Thread nD τ).loc main_arg1)) (m ((c : Thread nD τ).loc main_arg2)) := (W6_of_ne m ρ c main_v31 (by decide)).trans (v31_W5 m ρ c)
theorem arg6_W6 : W6 m ρ c (Proc.devRef .tc main_arg6) = (m ((c : Thread nD τ).loc main_arg6)) := (W6_of_ne m ρ c main_arg6 (by decide)).trans (arg6_W5 m ρ c)

/-! ### At the third region's entry -/
theorem v60_W7 : W7 m ρ c (Proc.devRef .tc main_v60) = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  E_v60 (W6 m ρ c) _ _ _ _ _ _ (v5_W6 m ρ c) (v6_W6 m ρ c) (v31_W6 m ρ c) (v47_W6 m ρ c)
theorem v61_W7 : W7 m ρ c (Proc.devRef .tc main_v61) = Cert.ReferenceIdeal.Read.val_main_v98 (F := Ideal) (m ((c : Thread nD τ).loc main_arg6)) := E_v61 (W6 m ρ c) _ (arg6_W6 m ρ c)

/-! ### At the return -/
/-- THE KERNEL'S RESULT: the result buffer ends at the reference's result stage of the argument arrays. -/
theorem result_eq : W8 m ρ c (Proc.devRef .tc main_v62)
    = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W8_arr m ρ c 2).trans ((R2.final (V7 m ρ) c).trans
    ((congr (congrArg Cert.Layers.outBias (v60_W7 m ρ c)) (v61_W7 m ρ c)).trans (Cert.Layers.ref_outBias _ _ _ _ _ _ _).symm))

end Boundaries

end Cert.KernelIdeal.Fold

end
-- ==== Proof.lean ====
/-
  A two-layer graph convolution: the Pallas kernel against its jnp reference, over the extended reals.

  Both programs add a self loop to every node, weight every edge by the symmetric normalisation
  `deg^(-1/2)[src] · w · deg^(-1/2)[dst]` (zero where a weighted degree is not positive), and compute
      h   = relu( aggregate( x · W1ᵀ ) + b1 ),      out = aggregate( h · W2ᵀ ) + b2,
  where `aggregate` gathers the rows along the edges' sources, scales them by the edge coefficients and sums
  them into the destination rows. The kernel leaves the sparse steps to the host and runs the three dense
  steps — `x · W1ᵀ`; bias, ReLU and `· W2ᵀ` fused; the output bias — as row-tiled regions of ten blocks of
  10000 rows, feeding the matrix unit bf16 operands.

  At the ideal instance a change of float format is the identity, and a block product into a zero
  accumulator is the plain sum over the contracted axis. Every row of each dense step depends on the same
  row of its input only, so the ten blocks a region writes back are the blocks of ONE whole-array function
  (Spec, Region0–2), which is the reference's dense stage; the host operations around the regions are the
  reference's own, applied to equal operands (Fold). No algebraic law beyond `0 + s = s` joins the two sides
  and no finiteness of the inputs is used: the precondition is never opened.

  The frames of the two kernel programs are the generated ones; the reference's frame is its generated run
  with the result dropped; the ideal pass rewrote nothing, so `preserves` is trivial.
-/
import proofs.«165319_j21337397526794_1_alg».proof.Defs
import proofs.«165319_j21337397526794_1_alg».proof.Proof.Gen.Kernel
import proofs.«165319_j21337397526794_1_alg».proof.Proof.Gen.Kernel.Skeleton
import proofs.«165319_j21337397526794_1_alg».proof.Proof.Gen.Kernel.Launch
import proofs.«165319_j21337397526794_1_alg».proof.Proof.Gen.Kernel.Points
import proofs.«165319_j21337397526794_1_alg».proof.Proof.Gen.Kernel.Frame
import proofs.«165319_j21337397526794_1_alg».proof.Proof.Gen.KernelIdeal
import proofs.«165319_j21337397526794_1_alg».proof.Proof.Gen.KernelIdeal.Skeleton
import proofs.«165319_j21337397526794_1_alg».proof.Proof.Gen.KernelIdeal.Launch
import proofs.«165319_j21337397526794_1_alg».proof.Proof.Gen.KernelIdeal.Points
import proofs.«165319_j21337397526794_1_alg».proof.Proof.Gen.KernelIdeal.Frame
import proofs.«165319_j21337397526794_1_alg».proof.Proof.Gen.ReferenceIdeal
import proofs.«165319_j21337397526794_1_alg».proof.Proof.Gen.Pre_finite_inputs
import proofs.«165319_j21337397526794_1_alg».proof.Proof.Gen.ReferenceIdeal.Run
import proofs.«165319_j21337397526794_1_alg».proof.Proof.Gen.ReferenceIdeal.Read
import proofs.«165319_j21337397526794_1_alg».proof.Proof.KRun
import proofs.«165319_j21337397526794_1_alg».proof.Proof.Fold
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on the seven arguments both idealized programs end with the same result array: the
    reference's result stage of the arguments. The kernel's result buffer ends there by the chain of its eight segments;
    the reference's by its run, the arguments' agreement rewritten. -/
theorem algebraic : Cert.algebraic_KernelIdeal_ReferenceIdeal := by
  intro m ρ m' ρ' _ hagree
  refine ⟨fun c => Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.result_eq m ρ c), (h c).2⟩)
      (Cert.KernelIdeal.KRun.run_values (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v100_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
